-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S2x64x128 : Shape := ⟨3, ![2, 64, 128]⟩
abbrev S2x64 : Shape := ⟨2, ![2, 64]⟩
abbrev S3200000 : Shape := ⟨1, ![3200000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S2x64 : S_.BroadcastsInDim S2x64 (![] : Fin 0 → Fin S2x64.rank)
  reducesTo_S2x64_S_d0_1 : S2x64.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg6 : FVec F S3200000 .f32) (main_arg9 : FVec F S3200000 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S3200000 .f32 := Host.absf main_arg6
  let main_cst_6 : FVec F S_ .f32 := constant S_ .f32 0x7F800000#32
  let main_v20 : FVec F S3200000 .f32 := broadcastInDim S3200000 ![] bcast_S_S3200000 main_cst_6
  let main_v21 : IVec S3200000 1 := cmpf .olt main_v19 main_v20
  let main_c_7 : IVec S_ 1 := constantI S_ 1 1#1
  let main_v22 : IVec S_ 1 := (fun x v => Host.reduce IntOp.andi x v reducesTo_S3200000_S_d0 h_S_) main_v21 main_c_7
  let main_v23 : IVec S_ 1 := andi main_v18 main_v22
  let main_v24 : FVec F S3200000 .f32 := Host.absf main_arg9
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  main_v28

def fn {F : FTy → Type} [FloatOps F] (main_arg0 : FVec F S200000x64 .f32) (main_arg1 : FVec F S100000x64 .f32) (main_arg2 : FVec F S2x64x128 .f32) (main_arg3 : FVec F S2x64 .f32) (main_arg4 : IVec S3200000 32) (main_arg5 : IVec S3200000 32) (main_arg6 : FVec F S3200000 .f32) (main_arg7 : IVec S3200000 32) (main_arg8 : IVec S3200000 32) (main_arg9 : FVec F S3200000 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2x64x128 .f32 := Host.absf main_arg2
  let main_cst_2 : FVec F S_ .f32 := constant S_ .f32 0x7F800000#32
  let main_v10 : FVec F S2x64x128 .f32 := broadcastInDim S2x64x128 ![] bcast_S_S2x64x128 main_cst_2
  let main_v11 : IVec S2x64x128 1 := cmpf .olt main_v9 main_v10
  let main_c_3 : IVec S_ 1 := constantI S_ 1 1#1
  let main_v12 : IVec S_ 1 := (fun x v => Host.reduce IntOp.andi x v reducesTo_S2x64x128_S_d0_1_2 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg6 main_arg9 main_v13 main_v16
-- ==== Kernel.lean ====
abbrev S200000x64 : Shape := ⟨2, ![200000, 64]⟩
abbrev S100000x64 : Shape := ⟨2, ![100000, 64]⟩
abbrev S2x64x128 : Shape := ⟨3, ![2, 64, 128]⟩
abbrev S2x64 : Shape := ⟨2, ![2, 64]⟩
abbrev S3200000 : Shape := ⟨1, ![3200000]⟩
abbrev S3200000x1 : Shape := ⟨2, ![3200000, 1]⟩
abbrev S_ : Shape := ⟨0, ![]⟩
abbrev S3200000x64 : Shape := ⟨2, ![3200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩

abbrev nBuf : Space → Nat
  | .hbm => 79
  | .vmem => 24
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S2x64x128, .f32⟩
  | .hbm, ⟨3, _⟩ => ⟨S2x64, .f32⟩
  | .hbm, ⟨4, _⟩ => ⟨S3200000, .i32⟩
  | .hbm, ⟨5, _⟩ => ⟨S3200000, .i32⟩
  | .hbm, ⟨6, _⟩ => ⟨S3200000, .f32⟩
  | .hbm, ⟨7, _⟩ => ⟨S3200000, .i32⟩
  | .hbm, ⟨8, _⟩ => ⟨S3200000, .i32⟩
  | .hbm, ⟨9, _⟩ => ⟨S3200000, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S200000x64, .f32⟩
  | .hbm, ⟨24, _⟩ => ⟨S3200000x1, .i32⟩
  | .hbm, ⟨25, _⟩ => ⟨S200000x64, .f32⟩
  | .hbm, ⟨26, _⟩ => ⟨S1x64x64, .f32⟩
  | .hbm, ⟨27, _⟩ => ⟨S64x64, .f32⟩
  | .hbm, ⟨28, _⟩ => ⟨S64x64, .f32⟩
  | .hbm, ⟨29, _⟩ => ⟨S1x64x64, .f32⟩
  | .hbm, ⟨30, _⟩ => ⟨S64x64, .f32⟩
  | .hbm, ⟨31, _⟩ => ⟨S64x64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S200000x64, .f32⟩
  | .hbm, ⟨36, _⟩ => ⟨S3200000x1, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x64, .f32⟩
  | .hbm, ⟨46, _⟩ => ⟨S3200000x64, .f32⟩
  | .hbm, ⟨47, _⟩ => ⟨S3200000x64, .f32⟩
  | .hbm, ⟨48, _⟩ => ⟨S_, .f32⟩
  | .hbm, ⟨49, _⟩ => ⟨S200000x64, .f32⟩
  | .hbm, ⟨50, _⟩ => ⟨S3200000x1, .i32⟩
  | .hbm, ⟨51, _⟩ => ⟨S200000x64, .f32⟩
  | .hbm, ⟨52, _⟩ => ⟨S1x64x64, .f32⟩
  | .hbm, ⟨53, _⟩ => ⟨S64x64, .f32⟩
  | .hbm, ⟨54, _⟩ => ⟨S64x64, .f32⟩
  | .hbm, ⟨55, _⟩ => ⟨S1x64x64, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S200000x64, .f32⟩
  | .hbm, ⟨62, _⟩ => ⟨S3200000x1, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x64, .f32⟩
  | .hbm, ⟨72, _⟩ => ⟨S3200000x64, .f32⟩
  | .hbm, ⟨73, _⟩ => ⟨S3200000x64, .f32⟩
  | .hbm, ⟨74, _⟩ => ⟨S_, .f32⟩
  | .hbm, ⟨75, _⟩ => ⟨S200000x64, .f32⟩
  | .hbm, ⟨76, _⟩ => ⟨S3200000x1, .i32⟩
  | .hbm, ⟨77, _⟩ => ⟨S200000x64, .f32⟩
  | .hbm, ⟨78, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_c_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  slices_S2x64x128_S1x64x64_0_0_0 : S2x64x128.Slices ![0, 0, 0] S1x64x64
  shapeCasts_S1x64x64_S64x64 : S1x64x64.ShapeCasts S64x64
  transposes_S64x64_S64x64_1_0 : S64x64.Transposes [1, 0] S64x64
  slices_S2x64x128_S1x64x64_0_0_64 : S2x64x128.Slices ![0, 0, 64] S1x64x64
  slices_S2x64_S1x64_0_0 : S2x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x64x128_S1x64x64_1_0_0 : S2x64x128.Slices ![1, 0, 0] S1x64x64
  slices_S2x64x128_S1x64x64_1_0_64 : S2x64x128.Slices ![1, 0, 64] S1x64x64
  slices_S2x64_S1x64_1_0 : S2x64.Slices ![1, 0] S1x64
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S5000x64_S64x64_S5000x64_1_0_0_1_n_n_wf : DotDims.WF S5000x64 S64x64 S5000x64 [1] [0] [0] [1] [] []
  gather_S100000x64_S3200000x1_S3200000x64_1_0_n_n_0_1_164_wf : GatherDims.WF S100000x64 S3200000x1 S3200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S200000x64.size a
  hwx0_5 : ∀ i : grid0.Coords, EltTy.bits .f32 = 32 ∨ (Rect.block (s := S200000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S200000x64.size a
  hwx1_5 : ∀ i : grid1.Coords, EltTy.bits .f32 = 32 ∨ (Rect.block (s := S200000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S200000x64.size a
  hwx2_2 : ∀ i : grid2.Coords, EltTy.bits .f32 = 32 ∨ (Rect.block (s := S200000x64) S5000x64.size (cc2_transform_2 i) (hinb2_2 i)).WholeWords (EltTy.packing .f32)

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S2x64x128 : Shape := ⟨3, ![2, 64, 128]⟩
abbrev S2x64 : Shape := ⟨2, ![2, 64]⟩
abbrev S3200000 : Shape := ⟨1, ![3200000]⟩
abbrev S3200000x1 : Shape := ⟨2, ![3200000, 1]⟩
abbrev S_ : Shape := ⟨0, ![]⟩
abbrev S3200000x64 : Shape := ⟨2, ![3200000, 64]⟩
abbrev S200000x128 : Shape := ⟨2, ![200000, 128]⟩
abbrev S1x64x128 : Shape := ⟨3, ![1, 64, 128]⟩
abbrev S64x128 : Shape := ⟨2, ![64, 128]⟩
abbrev S128x64 : Shape := ⟨2, ![128, 64]⟩
abbrev S1x64 : Shape := ⟨2, ![1, 64]⟩
abbrev S64 : Shape := ⟨1, ![64]⟩

abbrev nBuf : Space → Nat
  | .hbm => 85
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S2x64x128, .f32⟩
  | .hbm, ⟨3, _⟩ => ⟨S2x64, .f32⟩
  | .hbm, ⟨4, _⟩ => ⟨S3200000, .i32⟩
  | .hbm, ⟨5, _⟩ => ⟨S3200000, .i32⟩
  | .hbm, ⟨6, _⟩ => ⟨S3200000, .f32⟩
  | .hbm, ⟨7, _⟩ => ⟨S3200000, .i32⟩
  | .hbm, ⟨8, _⟩ => ⟨S3200000, .i32⟩
  | .hbm, ⟨9, _⟩ => ⟨S3200000, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S200000x64, .f32⟩
  | .hbm, ⟨24, _⟩ => ⟨S3200000x1, .i32⟩
  | .hbm, ⟨25, _⟩ => ⟨S200000x64, .f32⟩
  | .hbm, ⟨26, _⟩ => ⟨S200000x128, .f32⟩
  | .hbm, ⟨27, _⟩ => ⟨S1x64x128, .f32⟩
  | .hbm, ⟨28, _⟩ => ⟨S64x128, .f32⟩
  | .hbm, ⟨29, _⟩ => ⟨S128x64, .f32⟩
  | .hbm, ⟨30, _⟩ => ⟨S200000x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S200000x64, .f32⟩
  | .hbm, ⟨35, _⟩ => ⟨S200000x64, .f32⟩
  | .hbm, ⟨36, _⟩ => ⟨S_, .f32⟩
  | .hbm, ⟨37, _⟩ => ⟨S200000x64, .f32⟩
  | .hbm, ⟨38, _⟩ => ⟨S200000x64, .f32⟩
  | .hbm, ⟨39, _⟩ => ⟨S3200000x1, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x64, .f32⟩
  | .hbm, ⟨49, _⟩ => ⟨S3200000x64, .f32⟩
  | .hbm, ⟨50, _⟩ => ⟨S3200000x64, .f32⟩
  | .hbm, ⟨51, _⟩ => ⟨S_, .f32⟩
  | .hbm, ⟨52, _⟩ => ⟨S200000x64, .f32⟩
  | .hbm, ⟨53, _⟩ => ⟨S3200000x1, .i32⟩
  | .hbm, ⟨54, _⟩ => ⟨S200000x64, .f32⟩
  | .hbm, ⟨55, _⟩ => ⟨S200000x128, .f32⟩
  | .hbm, ⟨56, _⟩ => ⟨S1x64x128, .f32⟩
  | .hbm, ⟨57, _⟩ => ⟨S64x128, .f32⟩
  | .hbm, ⟨58, _⟩ => ⟨S128x64, .f32⟩
  | .hbm, ⟨59, _⟩ => ⟨S200000x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S200000x64, .f32⟩
  | .hbm, ⟨64, _⟩ => ⟨S200000x64, .f32⟩
  | .hbm, ⟨65, _⟩ => ⟨S_, .f32⟩
  | .hbm, ⟨66, _⟩ => ⟨S200000x64, .f32⟩
  | .hbm, ⟨67, _⟩ => ⟨S200000x64, .f32⟩
  | .hbm, ⟨68, _⟩ => ⟨S3200000x1, .f32⟩
  | .hbm, ⟨69, _⟩ => ⟨S_, .i32⟩
  | .hbm, ⟨70, _⟩ => ⟨S3200000, .i32⟩
  | .hbm, ⟨71, _⟩ => ⟨S3200000, .i1⟩
  | .hbm, ⟨72, _⟩ => ⟨S_, .i32⟩
  | .hbm, ⟨73, _⟩ => ⟨S3200000, .i32⟩
  | .hbm, ⟨74, _⟩ => ⟨S3200000, .i32⟩
  | .hbm, ⟨75, _⟩ => ⟨S3200000, .i32⟩
  | .hbm, ⟨76, _⟩ => ⟨S3200000x1, .i32⟩
  | .hbm, ⟨77, _⟩ => ⟨S3200000x64, .f32⟩
  | .hbm, ⟨78, _⟩ => ⟨S3200000x64, .f32⟩
  | .hbm, ⟨79, _⟩ => ⟨S3200000x64, .f32⟩
  | .hbm, ⟨80, _⟩ => ⟨S_, .f32⟩
  | .hbm, ⟨81, _⟩ => ⟨S200000x64, .f32⟩
  | .hbm, ⟨82, _⟩ => ⟨S3200000x1, .i32⟩
  | .hbm, ⟨83, _⟩ => ⟨S200000x64, .f32⟩
  | .hbm, ⟨84, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_c_4 : Ref sig .tc := ⟨.hbm, 69, rfl⟩
abbrev main_v49 : Ref sig .tc := ⟨.hbm, 70, rfl⟩
abbrev main_v50 : Ref sig .tc := ⟨.hbm, 71, rfl⟩
abbrev main_c_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  concatenates_S200000x64_S200000x64_S200000x128_d1 : Shape.Concatenates [S200000x64, S200000x64] S200000x128 1
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S2x64x128_S1x64x128_1_0_0 : S2x64x128.Slices ![1, 0, 0] S1x64x128
  slices_S2x64_S1x64_1_0 : S2x64.Slices ![1, 0] S1x64
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x128_S128x64_S200000x64_1_0_0_1_n_n_wf : DotDims.WF S200000x128 S128x64 S200000x64 [1] [0] [0] [1] [] []
  gather_S100000x64_S3200000x1_S3200000x64_1_0_n_n_0_1_164_wf : GatherDims.WF S100000x64 S3200000x1 S3200000x64 [1] [0] [] [0] [] 1 ![1, 64]

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf

class Facts : Prop extends Facts₀ where

variable [Facts]
-- ==== Proof.DenseLayer.lean ====
/-
  The diffusion encoder's user table as one function of whole arrays, over the extended reals.

  One dense update of a table of n rows by 64 columns takes an aggregate table `agg`, the current table `U`, two 64 x 64
  weight blocks `wa`, `wb` and a bias row, and leaves at entry (p, q)

      max ( (sum_c agg (p, c) * wa (c, q)  +  sum_c U (p, c) * wb (c, q))  +  bias (0, q) ,  0 ).

  For layer l the two weight blocks are the two halves of the l-th 64 x 128 weight matrix read transposed,
  wa (c, q) = W (l, q, c) and wb (c, q) = W (l, q, 64 + c), and the bias row is b (l, .). The encoder applies two such
  layers, each time aggregating the current table by the same sparse product `sp`, and adds a last aggregate `r`.
-/
import Idealize.ShloMosaic.PureOps.Ideal
import Idealize.ShloMosaic.Lib.ValueIdx

noncomputable section

namespace Cert.Diffusion

open Idealize.ShloMosaic Idealize.ShloMosaic.ValueIdx

/-- Entry (p, q) of one dense update of n rows: the rectified sum of the two 64-term contractions and the bias. -/
def denseAt {n : Nat} (agg U : FVec Ideal ⟨2, ![n, 64]⟩ .f32) (wa wb : FVec Ideal ⟨2, ![64, 64]⟩ .f32)
    (bias : FVec Ideal ⟨2, ![1, 64]⟩ .f32) (p : Fin n) (q : Fin 64) : EReal :=
  max ((∑ c : Fin 64, agg (ix2 p c) * wa (ix2 c q) + ∑ c : Fin 64, U (ix2 p c) * wb (ix2 c q)) + bias (ix2 0 q))
    (Ideal.ofBits .f32 0x00000000#32)

/-- One dense update of n rows, as a table. -/
def dense {n : Nat} (agg U : FVec Ideal ⟨2, ![n, 64]⟩ .f32) (wa wb : FVec Ideal ⟨2, ![64, 64]⟩ .f32)
    (bias : FVec Ideal ⟨2, ![1, 64]⟩ .f32) : FVec Ideal ⟨2, ![n, 64]⟩ .f32 :=
  fun i => denseAt agg U wa wb bias (i 0) (i 1)

theorem dense_ix2 {n : Nat} (agg U : FVec Ideal ⟨2, ![n, 64]⟩ .f32) (wa wb : FVec Ideal ⟨2, ![64, 64]⟩ .f32)
    (bias : FVec Ideal ⟨2, ![1, 64]⟩ .f32) (p : Fin n) (q : Fin 64) :
    dense agg U wa wb bias (ix2 p q) = denseAt agg U wa wb bias p q := rfl

/-- A dense update depends on its two tables only through the rows it is read at: if the tables agree row by row with
    the rows of two larger tables, so do the updates. Stated for one entry. -/
theorem denseAt_congr {n n' : Nat} (agg U : FVec Ideal ⟨2, ![n, 64]⟩ .f32) (agg' U' : FVec Ideal ⟨2, ![n', 64]⟩ .f32)
    (wa wb : FVec Ideal ⟨2, ![64, 64]⟩ .f32) (bias : FVec Ideal ⟨2, ![1, 64]⟩ .f32) (p : Fin n) (p' : Fin n') (q : Fin 64)
    (ha : ∀ c : Fin 64, agg (ix2 p c) = agg' (ix2 p' c)) (hu : ∀ c : Fin 64, U (ix2 p c) = U' (ix2 p' c)) :
    denseAt agg U wa wb bias p q = denseAt agg' U' wa wb bias p' q := by
  unfold denseAt
  simp only [ha, hu]

/-- Equal tables, weight blocks and bias rows give equal dense updates. -/
theorem dense_congr {n : Nat} {agg agg' U U' : FVec Ideal ⟨2, ![n, 64]⟩ .f32} {wa wa' wb wb' : FVec Ideal ⟨2, ![64, 64]⟩ .f32}
    {bias bias' : FVec Ideal ⟨2, ![1, 64]⟩ .f32} (h0 : agg = agg') (h1 : U = U') (h2 : wa = wa') (h3 : wb = wb')
    (h4 : bias = bias') : dense agg U wa wb bias = dense agg' U' wa' wb' bias' := by
  subst h0 h1 h2 h3 h4; rfl

/-- The entrywise sum of two arrays of one shape. -/
def entrySum {s : Shape} (a b : FVec Ideal s .f32) : FVec Ideal s .f32 := fun i => a i + b i

/-- Equal summands give equal entrywise sums. -/
theorem entrySum_congr {s : Shape} {a a' b b' : FVec Ideal s .f32} (h0 : a = a') (h1 : b = b') :
    entrySum a b = entrySum a' b' := by
  subst h0 h1; rfl

/-- The first weight block of layer l: the left half of the l-th weight matrix, transposed. -/
def waOf (l : Fin 2) (W : FVec Ideal ⟨3, ![2, 64, 128]⟩ .f32) : FVec Ideal ⟨2, ![64, 64]⟩ .f32 :=
  fun j => W (ix3 l (j 1) ⟨(j 0).val, Nat.lt_of_lt_of_le (idx2_lt0 j) (by decide)⟩)

/-- The second weight block of layer l: the right half of the l-th weight matrix, transposed. -/
def wbOf (l : Fin 2) (W : FVec Ideal ⟨3, ![2, 64, 128]⟩ .f32) : FVec Ideal ⟨2, ![64, 64]⟩ .f32 :=
  fun j => W (ix3 l (j 1) ⟨64 + (j 0).val, by have := idx2_lt0 j; omega⟩)

/-- The bias row of layer l. -/
def biasOf (l : Fin 2) (b : FVec Ideal ⟨2, ![2, 64]⟩ .f32) : FVec Ideal ⟨2, ![1, 64]⟩ .f32 :=
  fun j => b (ix2 l (j 1))

/-- Layer l of the encoder on the whole user table. -/
def layer (l : Fin 2) (agg U : FVec Ideal ⟨2, ![200000, 64]⟩ .f32) (W : FVec Ideal ⟨3, ![2, 64, 128]⟩ .f32)
    (b : FVec Ideal ⟨2, ![2, 64]⟩ .f32) : FVec Ideal ⟨2, ![200000, 64]⟩ .f32 :=
  dense agg U (waOf l W) (wbOf l W) (biasOf l b)

/-- The encoder's user table: two layers, each aggregating the current table by `sp`, then the last aggregate added. -/
def users (sp : FVec Ideal ⟨2, ![200000, 64]⟩ .f32 → FVec Ideal ⟨2, ![200000, 64]⟩ .f32)
    (r U₀ : FVec Ideal ⟨2, ![200000, 64]⟩ .f32) (W : FVec Ideal ⟨3, ![2, 64, 128]⟩ .f32)
    (b : FVec Ideal ⟨2, ![2, 64]⟩ .f32) : FVec Ideal ⟨2, ![200000, 64]⟩ .f32 :=
  entrySum (layer 1 (sp (layer 0 (sp U₀) U₀ W b)) (layer 0 (sp U₀) U₀ W b) W b) r

end Cert.Diffusion

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelBlock.lean ====
/-
  What the three kernel bodies compute, read at an entry of their 5000 x 64 block.

  A layer-update body loads an aggregate block, a block of the current table, two 64 x 64 weight blocks and a bias row.
  Narrowing a value to a shorter float format is the identity on the extended reals, and a block product accumulated
  into the zero block is the plain contraction, so the value the body stores is, at entry (p, q), the dense update of
  its loaded blocks: max (sum_c agg (p, c) * wa (c, q) + sum_c u (p, c) * wb (c, q) + bias (0, q), 0).
  The third body stores the entrywise sum of its two loaded blocks.
-/
import proofs.«154851_j78683800863294_1_alg».proof.Proof.Gen.KernelIdeal.Skeleton
import proofs.«154851_j78683800863294_1_alg».proof.Proof.DenseLayer
import proofs.«154851_j78683800863294_1_alg».proof.Proof.LibPlainMatmul
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.ValueIdx Cert.Diffusion

/-- The bodies' product contracts the columns of its left operand with the rows of its right one. -/
theorem product_dims : dot_S5000x64_S64x64_S5000x64_1_0_0_1_n_n = DotDims.plain 5000 64 64 := rfl

/-- A block product of narrowed operands into the zero block, at entry (p, q): the 64-term contraction of row p of the
    left block with column q of the right block. -/
theorem block_product (x : FVec Ideal S5000x64 .f32) (w : FVec Ideal S64x64 .f32) (p : Fin 5000) (q : Fin 64) :
    matmul (F := Ideal) dot_S5000x64_S64x64_S5000x64_1_0_0_1_n_n none (truncf .bf16 x bitsLt_bf16_f32)
        (truncf .bf16 w bitsLt_bf16_f32) (constant S5000x64 .f32 0x00000000#32) (ix2 p q)
      = ∑ c : Fin 64, x (ix2 p c) * w (ix2 c q) := by
  rw [product_dims]
  exact Cert.Lib.matmul_plain_zero_apply none (truncf .bf16 x bitsLt_bf16_f32) (truncf .bf16 w bitsLt_bf16_f32) p q

/-- The first layer-update body stores the dense update of its loaded blocks. -/
theorem first_update_at (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q) = denseAt x0 x1 x2 x3 x4 p q := by
  unfold k0_pay1 denseAt
  simp only [shapeCast_self]
  show max ((_ + _) + _) _ = _
  refine congrArg₂ max (congrArg₂ (· + ·) (congrArg₂ (· + ·) ?_ ?_) ?_) rfl
  · exact block_product x0 x2 p q
  · exact block_product x1 x3 p q
  · exact broadcastTo_1b_ab_apply x4 broadcasts_S1x64_S5000x64 p q

theorem first_update (x0 x1 : Vec Ideal S5000x64 .f32) (x2 x3 : Vec Ideal S64x64 .f32) (x4 : Vec Ideal S1x64 .f32) :
    k0_pay1 (F := Ideal) x0 x1 x2 x3 x4 = dense x0 x1 x2 x3 x4 := by
  funext i
  obtain ⟨p, q, rfl⟩ : ∃ (p : Fin 5000) (q : Fin 64), i = ix2 p q := ⟨i 0, i 1, eq_ix2 i⟩
  exact first_update_at x0 x1 x2 x3 x4 p q

/-- The second layer-update body stores the dense update of its loaded blocks. -/
theorem second_update_at (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q) = denseAt x0 x1 x2 x3 x4 p q := by
  unfold k1_pay1 denseAt
  simp only [shapeCast_self]
  show max ((_ + _) + _) _ = _
  refine congrArg₂ max (congrArg₂ (· + ·) (congrArg₂ (· + ·) ?_ ?_) ?_) rfl
  · exact block_product x0 x2 p q
  · exact block_product x1 x3 p q
  · exact broadcastTo_1b_ab_apply x4 broadcasts_S1x64_S5000x64 p q

theorem second_update (x0 x1 : Vec Ideal S5000x64 .f32) (x2 x3 : Vec Ideal S64x64 .f32) (x4 : Vec Ideal S1x64 .f32) :
    k1_pay1 (F := Ideal) x0 x1 x2 x3 x4 = dense x0 x1 x2 x3 x4 := by
  funext i
  obtain ⟨p, q, rfl⟩ : ∃ (p : Fin 5000) (q : Fin 64), i = ix2 p q := ⟨i 0, i 1, eq_ix2 i⟩
  exact second_update_at x0 x1 x2 x3 x4 p q

/-- The third body stores the entrywise sum of its two loaded blocks. -/
theorem block_sum (x0 x1 : Vec Ideal S5000x64 .f32) :
    k2_pay1 (F := Ideal) x0 x1 = entrySum x0 x1 := by
  unfold k2_pay1
  simp only [shapeCast_self]
  rfl

end Cert.KernelIdeal.Blocks

end
-- ==== Proof.KernelRegions.lean ====
/-
  What each of the three pallas_calls leaves in its output array, as one function of the arrays it reads.

  Every call walks the 40 row blocks of a 200000 x 64 table, 5000 rows at a time: at grid point t the row-blocked
  windows hold rows 5000 t .. 5000 t + 4999 of their arrays and the small windows (weights, bias) hold their whole
  arrays. The body's result at an entry of the block depends only on the same row of the row-blocked inputs, so what
  point t writes back is block t of one whole-table function, and the 40 blocks tile the table: the output array ends
  holding that function. For the two layer-update calls the function is the dense update of the whole tables; for the
  last call it is the entrywise sum. All of this is stated for arbitrary contents `V` of the buffers at the call's entry.
-/
import proofs.«154851_j78683800863294_1_alg».proof.Proof.Gen.KernelIdeal.Frame
import proofs.«154851_j78683800863294_1_alg».proof.Proof.KernelBlock
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Cert.Diffusion
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## Row blocks of whole-table functions -/

/-- Block k of the dense update of whole tables is the dense update of block k of the two tables with the same weight
    blocks and bias row: entry (p, q) of the block is entry (5000 k + p, q) of the table, and reads only row p of the
    blocks, row 5000 k + p of the tables. -/
theorem dense_row_block (agg U : FVec Ideal S200000x64 .f32) (wa wb : FVec Ideal S64x64 .f32) (bias : FVec Ideal S1x64 .f32)
    (x0 x1 : Vec Ideal S5000x64 .f32) (x2 x3 : Vec Ideal S64x64 .f32) (x4 : Vec Ideal S1x64 .f32) (k : Nat)
    (h0 : ∀ (p : Fin 5000) (c : Fin 64) (p' : Fin 200000), p'.val = k * 5000 + p.val → x0 (ix2 p c) = agg (ix2 p' c))
    (h1 : ∀ (p : Fin 5000) (c : Fin 64) (p' : Fin 200000), p'.val = k * 5000 + p.val → x1 (ix2 p c) = U (ix2 p' c))
    (h2 : x2 = wa) (h3 : x3 = wb) (h4 : x4 = bias)
    (y : S5000x64.Idx) (i : S200000x64.Idx) (hi0 : (i 0).val = k * 5000 + (y 0).val) (hi1 : (i 1).val = (y 1).val) :
    dense x0 x1 x2 x3 x4 y = dense agg U wa wb bias i := by
  subst h2 h3 h4
  obtain ⟨p, q, rfl⟩ : ∃ (p : Fin 5000) (q : Fin 64), y = ix2 p q := ⟨y 0, y 1, eq_ix2 y⟩
  obtain ⟨p', q', rfl⟩ : ∃ (p' : Fin 200000) (q' : Fin 64), i = ix2 p' q' := ⟨i 0, i 1, eq_ix2 i⟩
  have hq : q' = q := Fin.ext hi1
  subst hq
  rw [dense_ix2, dense_ix2]
  exact denseAt_congr x0 x1 agg U x2 x3 x4 p p' q' (fun c => h0 p c p' hi0) (fun c => h1 p c p' hi0)

/-- The entrywise sum of two blocks, at an entry where the blocks read the tables, is the tables' sum there. -/
theorem sum_row_block (a b : FVec Ideal S200000x64 .f32) (x0 x1 : Vec Ideal S5000x64 .f32) (y : S5000x64.Idx)
    (i : S200000x64.Idx) (h0 : x0 y = a i) (h1 : x1 y = b i) : entrySum x0 x1 y = entrySum a b i := by
  unfold entrySum; rw [h0, h1]

/-! ## Layer-update call 0 -/

/-- At point t the two row-blocked inputs and the output sit on row block t, the weights and the bias on their whole
    arrays. -/
theorem update0_points : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The dense update of the whole tables this call reads. -/
def update0 (c : Dev nD) : FVec Ideal S200000x64 .f32 :=
  dense (V c main_v12) (V c main_arg0) (V c main_v15) (V c main_v18) (V c main_v21)

/-- What point t writes back is block t of the dense update of the whole tables. -/
theorem update0_flushed (c : Dev nD) (t : Fin cfg0.N) :
    (dat0 V c).flushed 5 t = ((cfg0.win 5).blk t).view.read (Elt Ideal) (update0 V c) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets,
    View.ld_unit_zero (S := S1x64) zero_offsets]
  rw [Blocks.first_update]
  obtain ⟨e00, e01, e10, e11, e20, e21, e30, e31, e40, e41, e50, e51⟩ := update0_points t
  funext j
  show dense (iblk0 V c 0 t) (iblk0 V c 1 t) (iblk0 V c 2 t) (iblk0 V c 3 t) (iblk0 V c 4 t) j
    = update0 V c (((cfg0.win 5).blk t).view.emb j)
  refine dense_row_block (V c main_v12) (V c main_arg0) (V c main_v15) (V c main_v18) (V c main_v21)
    (iblk0 V c 0 t) (iblk0 V c 1 t) (iblk0 V c 2 t) (iblk0 V c 3 t) (iblk0 V c 4 t) t.val ?_ ?_ ?_ ?_ ?_ j _ ?_ ?_
  · intro p cc p' hp'
    show V c main_v12 (((cfg0.win 0).blk t).view.emb (ix2 p cc)) = V c main_v12 (ix2 p' cc)
    refine congrArg _ (funext fun a => Fin.ext ?_)
    match a with
    | ⟨0, _⟩ => show win0_0.index t (0 : Fin 2) * 5000 + 1 * p.val = p'.val; omega
    | ⟨1, _⟩ => show win0_0.index t (1 : Fin 2) * 64 + 1 * cc.val = cc.val; omega
  · intro p cc p' hp'
    show V c main_arg0 (((cfg0.win 1).blk t).view.emb (ix2 p cc)) = V c main_arg0 (ix2 p' cc)
    refine congrArg _ (funext fun a => Fin.ext ?_)
    match a with
    | ⟨0, _⟩ => show win0_1.index t (0 : Fin 2) * 5000 + 1 * p.val = p'.val; omega
    | ⟨1, _⟩ => show win0_1.index t (1 : Fin 2) * 64 + 1 * cc.val = cc.val; omega
  · funext y
    show V c main_v15 (((cfg0.win 2).blk t).view.emb y) = V c main_v15 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_v18 (((cfg0.win 3).blk t).view.emb y) = V c main_v18 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_v21 (((cfg0.win 4).blk t).view.emb y) = V c main_v21 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · show win0_5.index t (0 : Fin 2) * 5000 + 1 * (j 0).val = t.val * 5000 + (j 0).val; omega
  · show win0_5.index t (1 : Fin 2) * 64 + 1 * (j 1).val = (j 1).val; omega

/-- An entry of the table is in point t's block iff each coordinate is in the block's range. -/
theorem update0_mem_blk (t : Fin cfg0.N) (i : S200000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v22).slice (win0_5.rect t)).set ↔ _
  rw [View.set_slice_whole, Rect.mem_set_unit]
  exact Iff.rfl

/-- Every entry of the table is in the block of the point its row falls in. -/
theorem update0_cover (i : S200000x64.Idx) : ∃ t : Fin cfg0.N, (cfg0.win 5).flush t = true ∧ i ∈ ((cfg0.win 5).blk t).view.set := by
  have hi0 : (i 0).val < 200000 := (i 0).isLt
  have hi1 : (i 1).val < 64 := (i 1).isLt
  have hN : cfg0.N = 40 := N_0
  let t : Fin cfg0.N := ⟨(i 0).val / 5000, by rw [hN]; omega⟩
  obtain ⟨-, -, -, -, -, -, -, -, -, -, e50, e51⟩ := update0_points t
  have e50' : win0_5.index t (0 : Fin 2) = (i 0).val / 5000 := e50
  refine ⟨t, flush0_5 t, ?_⟩
  rw [update0_mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the call its output array holds the dense update of the whole tables. -/
theorem update0_final (c : Dev nD) : (dat0 V c).arrAt 5 cfg0.N = update0 V c :=
  (dat0 V c).arrAt_eq_of_cover 5 (update0 V c) (fun t _ => update0_flushed V c t) update0_cover

/-! ## Layer-update call 1 -/

/-- At point t the two row-blocked inputs and the output sit on row block t, the weights and the bias on their whole
    arrays. -/
theorem update1_points : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The dense update of the whole tables this call reads. -/
def update1 (c : Dev nD) : FVec Ideal S200000x64 .f32 :=
  dense (V c main_v35) (V c main_v22) (V c main_v38) (V c main_v41) (V c main_v44)

/-- What point t writes back is block t of the dense update of the whole tables. -/
theorem update1_flushed (c : Dev nD) (t : Fin cfg1.N) :
    (dat1 V c).flushed 5 t = ((cfg1.win 5).blk t).view.read (Elt Ideal) (update1 V c) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets,
    View.ld_unit_zero (S := S1x64) zero_offsets]
  rw [Blocks.second_update]
  obtain ⟨e00, e01, e10, e11, e20, e21, e30, e31, e40, e41, e50, e51⟩ := update1_points t
  funext j
  show dense (iblk1 V c 0 t) (iblk1 V c 1 t) (iblk1 V c 2 t) (iblk1 V c 3 t) (iblk1 V c 4 t) j
    = update1 V c (((cfg1.win 5).blk t).view.emb j)
  refine dense_row_block (V c main_v35) (V c main_v22) (V c main_v38) (V c main_v41) (V c main_v44)
    (iblk1 V c 0 t) (iblk1 V c 1 t) (iblk1 V c 2 t) (iblk1 V c 3 t) (iblk1 V c 4 t) t.val ?_ ?_ ?_ ?_ ?_ j _ ?_ ?_
  · intro p cc p' hp'
    show V c main_v35 (((cfg1.win 0).blk t).view.emb (ix2 p cc)) = V c main_v35 (ix2 p' cc)
    refine congrArg _ (funext fun a => Fin.ext ?_)
    match a with
    | ⟨0, _⟩ => show win1_0.index t (0 : Fin 2) * 5000 + 1 * p.val = p'.val; omega
    | ⟨1, _⟩ => show win1_0.index t (1 : Fin 2) * 64 + 1 * cc.val = cc.val; omega
  · intro p cc p' hp'
    show V c main_v22 (((cfg1.win 1).blk t).view.emb (ix2 p cc)) = V c main_v22 (ix2 p' cc)
    refine congrArg _ (funext fun a => Fin.ext ?_)
    match a with
    | ⟨0, _⟩ => show win1_1.index t (0 : Fin 2) * 5000 + 1 * p.val = p'.val; omega
    | ⟨1, _⟩ => show win1_1.index t (1 : Fin 2) * 64 + 1 * cc.val = cc.val; omega
  · funext y
    show V c main_v38 (((cfg1.win 2).blk t).view.emb y) = V c main_v38 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_v41 (((cfg1.win 3).blk t).view.emb y) = V c main_v41 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_v44 (((cfg1.win 4).blk t).view.emb y) = V c main_v44 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  · show win1_5.index t (0 : Fin 2) * 5000 + 1 * (j 0).val = t.val * 5000 + (j 0).val; omega
  · show win1_5.index t (1 : Fin 2) * 64 + 1 * (j 1).val = (j 1).val; omega

/-- An entry of the table is in point t's block iff each coordinate is in the block's range. -/
theorem update1_mem_blk (t : Fin cfg1.N) (i : S200000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Every entry of the table is in the block of the point its row falls in. -/
theorem update1_cover (i : S200000x64.Idx) : ∃ t : Fin cfg1.N, (cfg1.win 5).flush t = true ∧ i ∈ ((cfg1.win 5).blk t).view.set := by
  have hi0 : (i 0).val < 200000 := (i 0).isLt
  have hi1 : (i 1).val < 64 := (i 1).isLt
  have hN : cfg1.N = 40 := N_1
  let t : Fin cfg1.N := ⟨(i 0).val / 5000, by rw [hN]; omega⟩
  obtain ⟨-, -, -, -, -, -, -, -, -, -, e50, e51⟩ := update1_points t
  have e50' : win1_5.index t (0 : Fin 2) = (i 0).val / 5000 := e50
  refine ⟨t, flush1_5 t, ?_⟩
  rw [update1_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the call its output array holds the dense update of the whole tables. -/
theorem update1_final (c : Dev nD) : (dat1 V c).arrAt 5 cfg1.N = update1 V c :=
  (dat1 V c).arrAt_eq_of_cover 5 (update1 V c) (fun t _ => update1_flushed V c t) update1_cover

/-! ## The last call: the entrywise sum of two tables -/

/-- At point t both input windows and the output window sit on row block t. -/
theorem sum_points : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The sum of the two tables the last call reads. -/
def tableSum (c : Dev nD) : FVec Ideal S200000x64 .f32 := entrySum (V c main_v45) (V c main_v58)

/-- What point t writes back is block t of the sum of the two tables. -/
theorem sum_flushed (c : Dev nD) (t : Fin cfg2.N) :
    (dat2 V c).flushed 2 t = ((cfg2.win 2).blk t).view.read (Elt Ideal) (tableSum V c) := by
  show (cfg2.win 2).cut (grid2.coords t) ((dat2 V c).after 2 t) = _
  rw [after2_2]
  unfold out2_2
  rw [View.canon_unit_zero zero_offsets]
  simp only [View.ld_unit_zero (S := S5000x64) zero_offsets]
  rw [Blocks.block_sum]
  obtain ⟨e0, e1, e2, e3, e4, e5⟩ := sum_points t
  funext j
  show entrySum (iblk2 V c 0 t) (iblk2 V c 1 t) j = tableSum V c (((cfg2.win 2).blk t).view.emb j)
  refine sum_row_block (V c main_v45) (V c main_v58) (iblk2 V c 0 t) (iblk2 V c 1 t) j _ ?_ ?_
  · show V c main_v45 (((cfg2.win 0).blk t).view.emb j) = V c main_v45 (((cfg2.win 2).blk t).view.emb j)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  · show V c main_v58 (((cfg2.win 1).blk t).view.emb j) = V c main_v58 (((cfg2.win 2).blk t).view.emb j)
    refine congrArg _ (funext fun a => Fin.ext ?_)
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 64 + 1 * (j 1).val = win2_2.index t (1 : Fin 2) * 64 + 1 * (j 1).val; omega

/-- An entry of the table is in point t's block iff each coordinate is in the block's range. -/
theorem sum_mem_blk (t : Fin cfg2.N) (i : S200000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v59).slice (win2_2.rect t)).set ↔ _
  rw [View.set_slice_whole, Rect.mem_set_unit]
  exact Iff.rfl

/-- Every entry of the table is in the block of the point its row falls in. -/
theorem sum_cover (i : S200000x64.Idx) : ∃ t : Fin cfg2.N, (cfg2.win 2).flush t = true ∧ i ∈ ((cfg2.win 2).blk t).view.set := by
  have hi0 : (i 0).val < 200000 := (i 0).isLt
  have hi1 : (i 1).val < 64 := (i 1).isLt
  have hN : cfg2.N = 40 := N_2
  let t : Fin cfg2.N := ⟨(i 0).val / 5000, by rw [hN]; omega⟩
  obtain ⟨-, -, -, -, e4, e5⟩ := sum_points t
  have e4' : win2_2.index t (0 : Fin 2) = (i 0).val / 5000 := e4
  refine ⟨t, flush2_2 t, ?_⟩
  rw [sum_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the last call its output array holds the sum of the two tables. -/
theorem sum_final (c : Dev nD) : (dat2 V c).arrAt 2 cfg2.N = tableSum V c :=
  (dat2 V c).arrAt_eq_of_cover 2 (tableSum V c) (fun t _ => sum_flushed V c t) sum_cover

end Cert.KernelIdeal.Regions

end
-- ==== Proof.KernelHost.lean ====
/-
  What the host operations between the pallas_calls leave in the buffers the calls read.

  Each stretch of host operations, run from arbitrary contents `X` of the buffers, builds from the arguments it reads:
  the sparse product aggregate (gather the rows of a table at the column indices, wrapped into range when negative;
  scale each gathered row by its edge value; add the scaled rows into the rows named by the row indices, starting from
  the zero table), and, before a layer-update call, the layer's two weight blocks (a 64-column slice of weight matrix
  l, transposed) and its bias row (row l of the bias table, re-laid as a 1 x 64 array).
-/
import proofs.«154851_j78683800863294_1_alg».proof.Proof.Gen.KernelIdeal.Launch
import proofs.«154851_j78683800863294_1_alg».proof.Proof.DenseLayer
import Idealize.ShloMosaic.Lib.StableHlo.Run
import Idealize.ShloMosaic.Lib.Pipeline.Value
import Idealize.ShloMosaic.Lib.ValueLayout

set_option maxRecDepth 16384

noncomputable section

namespace Cert.KernelIdeal.HostGlue

open Cert.KernelIdeal Cert.KernelIdeal.Gen Idealize.ShloMosaic Idealize.ShloMosaic.TcCoe Idealize.ShloMosaic.ValueIdx
open Idealize.ShloMosaic.StableHlo Cert.Diffusion

/-- The sparse product of the user graph with a user table: for each of the 3200000 edges, row `cols e` of the table
    (a negative index wrapped by 200000) scaled by `vals e`, added into row `rows e` of the zero table. -/
def userSparse (rows cols : IVec S3200000 32) (vals : FVec Ideal S3200000 .f32) (X : FVec Ideal S200000x64 .f32) :
    FVec Ideal S200000x64 .f32 :=
  Host.scatterAdd (F := Ideal) scatter_S200000x64_S3200000x1_S3200000x64_1_0_0_1
    (broadcastInDim S200000x64 ![] bcast_S_S200000x64 (constant (F := Ideal) S_ .f32 0x00000000#32))
    (broadcastInDim S3200000x1 ![0] bcast_S3200000_S3200000x1_0 rows)
    (mulf (F := Ideal)
      (broadcastInDim S3200000x64 ![0, 1] bcast_S3200000x1_S3200000x64_0_1
        (broadcastInDim S3200000x1 ![0] bcast_S3200000_S3200000x1_0 vals))
      (Host.gather gather_S200000x64_S3200000x1_S3200000x64_1_0_n_n_0_1_164 X
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 200000#32))) cols))))

/-- The sparse product of the user-item graph with the item table: the same, gathering rows of the 100000-row item
    table (a negative index wrapped by 100000). -/
def itemSparse (rows cols : IVec S3200000 32) (vals : FVec Ideal S3200000 .f32) (X : FVec Ideal S100000x64 .f32) :
    FVec Ideal S200000x64 .f32 :=
  Host.scatterAdd (F := Ideal) scatter_S200000x64_S3200000x1_S3200000x64_1_0_0_1
    (broadcastInDim S200000x64 ![] bcast_S_S200000x64 (constant (F := Ideal) S_ .f32 0x00000000#32))
    (broadcastInDim S3200000x1 ![0] bcast_S3200000_S3200000x1_0 rows)
    (mulf (F := Ideal)
      (broadcastInDim S3200000x64 ![0, 1] bcast_S3200000x1_S3200000x64_0_1
        (broadcastInDim S3200000x1 ![0] bcast_S3200000_S3200000x1_0 vals))
      (Host.gather gather_S100000x64_S3200000x1_S3200000x64_1_0_n_n_0_1_164 X
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

/-! ## The host operations before layer-update call 0 -/

set_option maxHeartbeats 4000000 in
/-- They leave in the aggregate buffer the sparse product of the user-graph arguments with the current table. -/
theorem stretch0_agg (X : Valuation τ sig (Elt Ideal)) :
    StableHlo.after (hostOps0 (F := Ideal)) X (Proc.devRef .tc main_v12)
      = userSparse (X (Proc.devRef .tc main_arg4)) (X (Proc.devRef .tc main_arg5)) (X (Proc.devRef .tc main_arg6))
          (X (Proc.devRef .tc main_arg0)) := by
  after_results_simp
  rfl

/-- They leave in the first weight buffer the left half of weight matrix 0, transposed. -/
theorem stretch0_wa (X : Valuation τ sig (Elt Ideal)) :
    StableHlo.after (hostOps0 (F := Ideal)) X (Proc.devRef .tc main_v15) = waOf 0 (X (Proc.devRef .tc main_arg2)) := by
  after_results
  funext j
  obtain ⟨cc, q, rfl⟩ : ∃ (cc : Fin 64) (q : Fin 64), j = ix2 cc q := ⟨j 0, j 1, eq_ix2 j⟩
  refine (transpose_ix2_apply _ transposes_S64x64_S64x64_1_0 cc q).trans ?_
  refine (shapeCast_1ab_ab_apply _ shapeCasts_S1x64x64_S64x64 q cc).trans ?_
  unfold waOf
  exact extractStridedSlice_apply _ _ _ (ix3 (0 : Fin 1) q cc) (ix3 (0 : Fin 2) q ⟨cc.val, by omega⟩) (fun ax => by
    match ax with
    | ⟨0, _⟩ => rfl
    | ⟨1, _⟩ => exact (Nat.zero_add _).symm
    | ⟨2, _⟩ => exact (Nat.zero_add _).symm)

/-- They leave in the second weight buffer the right half of weight matrix 0, transposed. -/
theorem stretch0_wb (X : Valuation τ sig (Elt Ideal)) :
    StableHlo.after (hostOps0 (F := Ideal)) X (Proc.devRef .tc main_v18) = wbOf 0 (X (Proc.devRef .tc main_arg2)) := by
  after_results
  funext j
  obtain ⟨cc, q, rfl⟩ : ∃ (cc : Fin 64) (q : Fin 64), j = ix2 cc q := ⟨j 0, j 1, eq_ix2 j⟩
  refine (transpose_ix2_apply _ transposes_S64x64_S64x64_1_0 cc q).trans ?_
  refine (shapeCast_1ab_ab_apply _ shapeCasts_S1x64x64_S64x64 q cc).trans ?_
  unfold wbOf
  exact extractStridedSlice_apply _ _ _ (ix3 (0 : Fin 1) q cc) (ix3 (0 : Fin 2) q ⟨64 + cc.val, by omega⟩) (fun ax => by
    match ax with
    | ⟨0, _⟩ => rfl
    | ⟨1, _⟩ => exact (Nat.zero_add _).symm
    | ⟨2, _⟩ => rfl)

/-- They leave in the bias buffer row 0 of the bias table. -/
theorem stretch0_bias (X : Valuation τ sig (Elt Ideal)) :
    StableHlo.after (hostOps0 (F := Ideal)) X (Proc.devRef .tc main_v21) = biasOf 0 (X (Proc.devRef .tc main_arg3)) := by
  after_results
  funext j
  obtain ⟨u, q, rfl⟩ : ∃ (u : Fin 1) (q : Fin 64), j = ix2 u q := ⟨j 0, j 1, eq_ix2 j⟩
  refine (shapeCast_a_1a_apply _ shapeCasts_S64_S1x64 u q).trans ?_
  refine (shapeCast_1a_a_apply _ shapeCasts_S1x64_S64 q).trans ?_
  unfold biasOf
  exact slice2_axis0_apply 0 _ _ (0 : Fin 1) q (0 : Fin 2) rfl

/-- They do not write the table the call reads beside the aggregate. -/
theorem stretch0_table (X : Valuation τ sig (Elt Ideal)) :
    StableHlo.after (hostOps0 (F := Ideal)) X (Proc.devRef .tc main_arg0) = X (Proc.devRef .tc main_arg0) := by
  after_results

/-! ## The host operations before layer-update call 1 -/

set_option maxHeartbeats 4000000 in
/-- They leave in the aggregate buffer the sparse product of the user-graph arguments with the current table. -/
theorem stretch1_agg (X : Valuation τ sig (Elt Ideal)) :
    StableHlo.after (hostOps1 (F := Ideal)) X (Proc.devRef .tc main_v35)
      = userSparse (X (Proc.devRef .tc main_arg4)) (X (Proc.devRef .tc main_arg5)) (X (Proc.devRef .tc main_arg6))
          (X (Proc.devRef .tc main_v22)) := by
  after_results_simp
  rfl

/-- They leave in the first weight buffer the left half of weight matrix 1, transposed. -/
theorem stretch1_wa (X : Valuation τ sig (Elt Ideal)) :
    StableHlo.after (hostOps1 (F := Ideal)) X (Proc.devRef .tc main_v38) = waOf 1 (X (Proc.devRef .tc main_arg2)) := by
  after_results
  funext j
  obtain ⟨cc, q, rfl⟩ : ∃ (cc : Fin 64) (q : Fin 64), j = ix2 cc q := ⟨j 0, j 1, eq_ix2 j⟩
  refine (transpose_ix2_apply _ transposes_S64x64_S64x64_1_0 cc q).trans ?_
  refine (shapeCast_1ab_ab_apply _ shapeCasts_S1x64x64_S64x64 q cc).trans ?_
  unfold waOf
  exact extractStridedSlice_apply _ _ _ (ix3 (0 : Fin 1) q cc) (ix3 (1 : Fin 2) q ⟨cc.val, by omega⟩) (fun ax => by
    match ax with
    | ⟨0, _⟩ => rfl
    | ⟨1, _⟩ => exact (Nat.zero_add _).symm
    | ⟨2, _⟩ => exact (Nat.zero_add _).symm)

/-- They leave in the second weight buffer the right half of weight matrix 1, transposed. -/
theorem stretch1_wb (X : Valuation τ sig (Elt Ideal)) :
    StableHlo.after (hostOps1 (F := Ideal)) X (Proc.devRef .tc main_v41) = wbOf 1 (X (Proc.devRef .tc main_arg2)) := by
  after_results
  funext j
  obtain ⟨cc, q, rfl⟩ : ∃ (cc : Fin 64) (q : Fin 64), j = ix2 cc q := ⟨j 0, j 1, eq_ix2 j⟩
  refine (transpose_ix2_apply _ transposes_S64x64_S64x64_1_0 cc q).trans ?_
  refine (shapeCast_1ab_ab_apply _ shapeCasts_S1x64x64_S64x64 q cc).trans ?_
  unfold wbOf
  exact extractStridedSlice_apply _ _ _ (ix3 (0 : Fin 1) q cc) (ix3 (1 : Fin 2) q ⟨64 + cc.val, by omega⟩) (fun ax => by
    match ax with
    | ⟨0, _⟩ => rfl
    | ⟨1, _⟩ => exact (Nat.zero_add _).symm
    | ⟨2, _⟩ => rfl)

/-- They leave in the bias buffer row 1 of the bias table. -/
theorem stretch1_bias (X : Valuation τ sig (Elt Ideal)) :
    StableHlo.after (hostOps1 (F := Ideal)) X (Proc.devRef .tc main_v44) = biasOf 1 (X (Proc.devRef .tc main_arg3)) := by
  after_results
  funext j
  obtain ⟨u, q, rfl⟩ : ∃ (u : Fin 1) (q : Fin 64), j = ix2 u q := ⟨j 0, j 1, eq_ix2 j⟩
  refine (shapeCast_a_1a_apply _ shapeCasts_S64_S1x64 u q).trans ?_
  refine (shapeCast_1a_a_apply _ shapeCasts_S1x64_S64 q).trans ?_
  unfold biasOf
  exact slice2_axis0_apply 1 _ _ (0 : Fin 1) q (1 : Fin 2) rfl

/-- They do not write the table the call reads beside the aggregate. -/
theorem stretch1_table (X : Valuation τ sig (Elt Ideal)) :
    StableHlo.after (hostOps1 (F := Ideal)) X (Proc.devRef .tc main_v22) = X (Proc.devRef .tc main_v22) := by
  after_results

/-! ## The host operations before the last call -/

set_option maxHeartbeats 4000000 in
/-- They leave in the last aggregate buffer the sparse product of the user-item arguments with the item table. -/
theorem stretch2_agg (X : Valuation τ sig (Elt Ideal)) :
    StableHlo.after (hostOps2 (F := Ideal)) X (Proc.devRef .tc main_v58)
      = itemSparse (X (Proc.devRef .tc main_arg7)) (X (Proc.devRef .tc main_arg8)) (X (Proc.devRef .tc main_arg9))
          (X (Proc.devRef .tc main_arg1)) := by
  after_results_simp
  rfl

/-- They do not write the table the second layer left. -/
theorem stretch2_table (X : Valuation τ sig (Elt Ideal)) :
    StableHlo.after (hostOps2 (F := Ideal)) X (Proc.devRef .tc main_v45) = X (Proc.devRef .tc main_v45) := by
  after_results

/-! ## The arguments the stretches read but do not write

The first two stretches write only the buffers of their own intermediate values, so every argument the later stretches
read still holds its launch contents when they read it. -/

theorem stretch0_keeps_arg1 (X : Valuation τ sig (Elt Ideal)) :
    StableHlo.after (hostOps0 (F := Ideal)) X (Proc.devRef .tc main_arg1) = X (Proc.devRef .tc main_arg1) := by
  after_results
theorem stretch0_keeps_arg2 (X : Valuation τ sig (Elt Ideal)) :
    StableHlo.after (hostOps0 (F := Ideal)) X (Proc.devRef .tc main_arg2) = X (Proc.devRef .tc main_arg2) := by
  after_results
theorem stretch0_keeps_arg3 (X : Valuation τ sig (Elt Ideal)) :
    StableHlo.after (hostOps0 (F := Ideal)) X (Proc.devRef .tc main_arg3) = X (Proc.devRef .tc main_arg3) := by
  after_results
theorem stretch0_keeps_arg4 (X : Valuation τ sig (Elt Ideal)) :
    StableHlo.after (hostOps0 (F := Ideal)) X (Proc.devRef .tc main_arg4) = X (Proc.devRef .tc main_arg4) := by
  after_results
theorem stretch0_keeps_arg5 (X : Valuation τ sig (Elt Ideal)) :
    StableHlo.after (hostOps0 (F := Ideal)) X (Proc.devRef .tc main_arg5) = X (Proc.devRef .tc main_arg5) := by
  after_results
theorem stretch0_keeps_arg6 (X : Valuation τ sig (Elt Ideal)) :
    StableHlo.after (hostOps0 (F := Ideal)) X (Proc.devRef .tc main_arg6) = X (Proc.devRef .tc main_arg6) := by
  after_results
theorem stretch0_keeps_arg7 (X : Valuation τ sig (Elt Ideal)) :
    StableHlo.after (hostOps0 (F := Ideal)) X (Proc.devRef .tc main_arg7) = X (Proc.devRef .tc main_arg7) := by
  after_results
theorem stretch0_keeps_arg8 (X : Valuation τ sig (Elt Ideal)) :
    StableHlo.after (hostOps0 (F := Ideal)) X (Proc.devRef .tc main_arg8) = X (Proc.devRef .tc main_arg8) := by
  after_results
theorem stretch0_keeps_arg9 (X : Valuation τ sig (Elt Ideal)) :
    StableHlo.after (hostOps0 (F := Ideal)) X (Proc.devRef .tc main_arg9) = X (Proc.devRef .tc main_arg9) := by
  after_results
theorem stretch1_keeps_arg1 (X : Valuation τ sig (Elt Ideal)) :
    StableHlo.after (hostOps1 (F := Ideal)) X (Proc.devRef .tc main_arg1) = X (Proc.devRef .tc main_arg1) := by
  after_results
theorem stretch1_keeps_arg7 (X : Valuation τ sig (Elt Ideal)) :
    StableHlo.after (hostOps1 (F := Ideal)) X (Proc.devRef .tc main_arg7) = X (Proc.devRef .tc main_arg7) := by
  after_results
theorem stretch1_keeps_arg8 (X : Valuation τ sig (Elt Ideal)) :
    StableHlo.after (hostOps1 (F := Ideal)) X (Proc.devRef .tc main_arg8) = X (Proc.devRef .tc main_arg8) := by
  after_results
theorem stretch1_keeps_arg9 (X : Valuation τ sig (Elt Ideal)) :
    StableHlo.after (hostOps1 (F := Ideal)) X (Proc.devRef .tc main_arg9) = X (Proc.devRef .tc main_arg9) := by
  after_results

end Cert.KernelIdeal.HostGlue

end
-- ==== Proof.KernelRun.lean ====
/-
  The kernel program's run, with its result named.

  The program is three pallas_calls among stretches of host operations. Running its segments in order from the launch
  memory, every buffer that is not scoped to a call ends at the last boundary's contents: the fold that applies each
  host stretch to the contents before it and replaces each call's arrays by what the call's write-backs leave. So the
  result buffer ends at that fold read at the result, and every argument ends as launched.
-/
import proofs.«154851_j78683800863294_1_alg».proof.Proof.Gen.KernelIdeal.Frame

set_option maxRecDepth 16384

noncomputable section

namespace Cert.KernelIdeal.UserRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the ten arguments end as launched. -/
theorem run : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.UserRun

end
-- ==== Proof.KernelValue.lean ====
/-
  The kernel program's result is the encoder's user table of the launch arguments.

  Reading the last boundary's contents at the result buffer, call by call from the end: the last call leaves the sum of
  the second layer's table and the item aggregate; the second layer-update call leaves the dense update of the first
  layer's table with its aggregate; the first leaves the dense update of the launched user table with its aggregate.
  Each host stretch builds the aggregate, weight blocks and bias row its call reads from arguments that still hold their
  launch contents, because no stretch and no call writes an argument.
-/
import proofs.«154851_j78683800863294_1_alg».proof.Proof.KernelRegions
import proofs.«154851_j78683800863294_1_alg».proof.Proof.KernelHost
import proofs.«154851_j78683800863294_1_alg».proof.Proof.KernelRun

set_option maxRecDepth 16384

noncomputable section

namespace Cert.KernelIdeal.UserValue

open Cert.KernelIdeal Cert.KernelIdeal.Gen Idealize.ShloMosaic Idealize.ShloMosaic.TcCoe Idealize.ShloMosaic.ValueIdx
open Idealize.SL.Sem Idealize.ShloMosaic.StableHlo
open Cert.Diffusion Cert.KernelIdeal.HostGlue Cert.KernelIdeal.Regions

variable (m : (ℓ : Loc nD τ sig) → Buf (Elt Ideal) ℓ) (ρ : Dev nD → PrngReg) (c : Dev nD)

/-! ## The arguments at the later boundaries -/

theorem W2_arg2 : W2 m ρ c (Proc.devRef .tc main_arg2) = m ((c : Thread nD τ).loc main_arg2) :=
  (W2_of_ne m ρ c main_arg2 (by decide)).trans (stretch0_keeps_arg2 (W0 m ρ c))
theorem W2_arg3 : W2 m ρ c (Proc.devRef .tc main_arg3) = m ((c : Thread nD τ).loc main_arg3) :=
  (W2_of_ne m ρ c main_arg3 (by decide)).trans (stretch0_keeps_arg3 (W0 m ρ c))
theorem W2_arg4 : W2 m ρ c (Proc.devRef .tc main_arg4) = m ((c : Thread nD τ).loc main_arg4) :=
  (W2_of_ne m ρ c main_arg4 (by decide)).trans (stretch0_keeps_arg4 (W0 m ρ c))
theorem W2_arg5 : W2 m ρ c (Proc.devRef .tc main_arg5) = m ((c : Thread nD τ).loc main_arg5) :=
  (W2_of_ne m ρ c main_arg5 (by decide)).trans (stretch0_keeps_arg5 (W0 m ρ c))
theorem W2_arg6 : W2 m ρ c (Proc.devRef .tc main_arg6) = m ((c : Thread nD τ).loc main_arg6) :=
  (W2_of_ne m ρ c main_arg6 (by decide)).trans (stretch0_keeps_arg6 (W0 m ρ c))

theorem W4_arg1 : W4 m ρ c (Proc.devRef .tc main_arg1) = m ((c : Thread nD τ).loc main_arg1) :=
  (W4_of_ne m ρ c main_arg1 (by decide)).trans ((stretch1_keeps_arg1 (W2 m ρ c)).trans
    ((W2_of_ne m ρ c main_arg1 (by decide)).trans (stretch0_keeps_arg1 (W0 m ρ c))))
theorem W4_arg7 : W4 m ρ c (Proc.devRef .tc main_arg7) = m ((c : Thread nD τ).loc main_arg7) :=
  (W4_of_ne m ρ c main_arg7 (by decide)).trans ((stretch1_keeps_arg7 (W2 m ρ c)).trans
    ((W2_of_ne m ρ c main_arg7 (by decide)).trans (stretch0_keeps_arg7 (W0 m ρ c))))
theorem W4_arg8 : W4 m ρ c (Proc.devRef .tc main_arg8) = m ((c : Thread nD τ).loc main_arg8) :=
  (W4_of_ne m ρ c main_arg8 (by decide)).trans ((stretch1_keeps_arg8 (W2 m ρ c)).trans
    ((W2_of_ne m ρ c main_arg8 (by decide)).trans (stretch0_keeps_arg8 (W0 m ρ c))))
theorem W4_arg9 : W4 m ρ c (Proc.devRef .tc main_arg9) = m ((c : Thread nD τ).loc main_arg9) :=
  (W4_of_ne m ρ c main_arg9 (by decide)).trans ((stretch1_keeps_arg9 (W2 m ρ c)).trans
    ((W2_of_ne m ρ c main_arg9 (by decide)).trans (stretch0_keeps_arg9 (W0 m ρ c))))

/-! ## The tables, call by call -/

/-- After the first layer-update call its output buffer holds layer 0 of the launched user table. -/
theorem first_table : W2 m ρ c (Proc.devRef .tc main_v22) = (layer 0 (userSparse (m ((c : Thread nD τ).loc main_arg4)) (m ((c : Thread nD τ).loc main_arg5)) (m ((c : Thread nD τ).loc main_arg6)) (m ((c : Thread nD τ).loc main_arg0))) (m ((c : Thread nD τ).loc main_arg0)) (m ((c : Thread nD τ).loc main_arg2)) (m ((c : Thread nD τ).loc main_arg3))) := by
  refine (W2_arr m ρ c 5).trans ((update0_final (V1 m ρ) c).trans ?_)
  unfold update0 layer
  exact dense_congr (stretch0_agg (W0 m ρ c)) (stretch0_table (W0 m ρ c)) (stretch0_wa (W0 m ρ c))
    (stretch0_wb (W0 m ρ c)) (stretch0_bias (W0 m ρ c))

/-- After the second layer-update call its output buffer holds layer 1 of the first layer's table. -/
theorem second_table : W4 m ρ c (Proc.devRef .tc main_v45)
    = layer 1 (userSparse (m ((c : Thread nD τ).loc main_arg4)) (m ((c : Thread nD τ).loc main_arg5)) (m ((c : Thread nD τ).loc main_arg6)) (layer 0 (userSparse (m ((c : Thread nD τ).loc main_arg4)) (m ((c : Thread nD τ).loc main_arg5)) (m ((c : Thread nD τ).loc main_arg6)) (m ((c : Thread nD τ).loc main_arg0))) (m ((c : Thread nD τ).loc main_arg0)) (m ((c : Thread nD τ).loc main_arg2)) (m ((c : Thread nD τ).loc main_arg3)))) (layer 0 (userSparse (m ((c : Thread nD τ).loc main_arg4)) (m ((c : Thread nD τ).loc main_arg5)) (m ((c : Thread nD τ).loc main_arg6)) (m ((c : Thread nD τ).loc main_arg0))) (m ((c : Thread nD τ).loc main_arg0)) (m ((c : Thread nD τ).loc main_arg2)) (m ((c : Thread nD τ).loc main_arg3))) (m ((c : Thread nD τ).loc main_arg2)) (m ((c : Thread nD τ).loc main_arg3)) := by
  refine (W4_arr m ρ c 5).trans ((update1_final (V3 m ρ) c).trans ?_)
  unfold update1 layer
  refine dense_congr ?_ ?_ ?_ ?_ ?_
  · refine (stretch1_agg (W2 m ρ c)).trans ?_
    rw [W2_arg4 m ρ c, W2_arg5 m ρ c, W2_arg6 m ρ c, first_table m ρ c]
    rfl
  · exact (stretch1_table (W2 m ρ c)).trans (first_table m ρ c)
  · exact (stretch1_wa (W2 m ρ c)).trans (congrArg (waOf 1) (W2_arg2 m ρ c))
  · exact (stretch1_wb (W2 m ρ c)).trans (congrArg (wbOf 1) (W2_arg2 m ρ c))
  · exact (stretch1_bias (W2 m ρ c)).trans (congrArg (biasOf 1) (W2_arg3 m ρ c))

/-- The result buffer ends holding the encoder's user table of the launch arguments. -/
theorem result : W6 m ρ c (Proc.devRef .tc main_v59)
    = users (userSparse (m ((c : Thread nD τ).loc main_arg4)) (m ((c : Thread nD τ).loc main_arg5)) (m ((c : Thread nD τ).loc main_arg6))) (itemSparse (m ((c : Thread nD τ).loc main_arg7)) (m ((c : Thread nD τ).loc main_arg8)) (m ((c : Thread nD τ).loc main_arg9)) (m ((c : Thread nD τ).loc main_arg1))) (m ((c : Thread nD τ).loc main_arg0)) (m ((c : Thread nD τ).loc main_arg2)) (m ((c : Thread nD τ).loc main_arg3)) := by
  refine (W6_arr m ρ c 2).trans ((sum_final (V5 m ρ) c).trans ?_)
  unfold tableSum users
  refine entrySum_congr ?_ ?_
  · exact (stretch2_table (W4 m ρ c)).trans (second_table m ρ c)
  · refine (stretch2_agg (W4 m ρ c)).trans ?_
    rw [W4_arg7 m ρ c, W4_arg8 m ρ c, W4_arg9 m ρ c, W4_arg1 m ρ c]

/-! ## The run -/

/-- Every weakly fair execution of the kernel program terminates without a fault, its result the encoder's user table of
    the launch arguments, its arguments as launched. -/
theorem run : θ_run defs (onTc (τ := τ) (main (F := Ideal))) ⟨m, fun _ => 0, ρ⟩ (fun r => ∀ c : Dev nD,
      r.2.mem ((c.tc : Thread nD τ).loc main_v59)
        = users (userSparse (m ((c : Thread nD τ).loc main_arg4)) (m ((c : Thread nD τ).loc main_arg5)) (m ((c : Thread nD τ).loc main_arg6))) (itemSparse (m ((c : Thread nD τ).loc main_arg7)) (m ((c : Thread nD τ).loc main_arg8)) (m ((c : Thread nD τ).loc main_arg9)) (m ((c : Thread nD τ).loc main_arg1))) (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (UserRun.run m ρ)

end Cert.KernelIdeal.UserValue

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.RefValue.lean ====
/-
  The reference program's result is the encoder's user table of its arguments.

  The reference computes, twice, rectify (concat (agg, U) . W[l]ᵀ + b[l]) with agg the sparse product of the user graph
  with the current table U, and adds the sparse product of the user-item graph with the item table. Its sparse products
  are, operation for operation, the ones the kernel program's host operations spell. Its dense stage contracts the 128
  columns of concat (agg, U) with the 128 rows of W[l]ᵀ; a sum over 128 terms is the sum over the first 64 plus the sum
  over the last 64 in any commutative monoid, the first 64 columns of the concatenation are agg's and the last 64 are
  U's, so the stage is the dense update with the two halves of W[l] as weight blocks: no finiteness is needed.
-/
import proofs.«154851_j78683800863294_1_alg».proof.Proof.Gen.ReferenceIdeal.Read
import proofs.«154851_j78683800863294_1_alg».proof.Proof.DenseLayer
import proofs.«154851_j78683800863294_1_alg».proof.Proof.LibConcatContraction
import proofs.«154851_j78683800863294_1_alg».proof.Proof.KernelHost

set_option maxRecDepth 16384

noncomputable section

namespace Cert.ReferenceIdeal.UserValue

open Cert.ReferenceIdeal Cert.ReferenceIdeal.Gen Cert.ReferenceIdeal.Read Idealize.ShloMosaic Idealize.ShloMosaic.TcCoe
open Idealize.ShloMosaic.ValueIdx Idealize.SL.Sem Cert.Diffusion

/-- A sum of 128 terms is the sum of its first 64 terms plus the sum of its last 64. -/
theorem sum_halves (f : Fin 128 → EReal) :
    ∑ k : Fin 128, f k = ∑ cc : Fin 64, f ⟨cc.val, by omega⟩ + ∑ cc : Fin 64, f ⟨64 + cc.val, by omega⟩ :=
  Fin.sum_univ_add (fun k : Fin (64 + 64) => f k)

/-! ## The sparse products are the kernel program's -/

theorem sparse0 (x0 : (⟨S200000x64, .f32⟩ : BufTy).Contents (Elt Ideal)) (x4 x5 : (⟨S3200000, .i32⟩ : BufTy).Contents (Elt Ideal))
    (x6 : (⟨S3200000, .f32⟩ : BufTy).Contents (Elt Ideal)) :
    val_main_v12 (F := Ideal) x0 x4 x5 x6 = Cert.KernelIdeal.HostGlue.userSparse x4 x5 x6 x0 := rfl

theorem sparse1 (x0 : (⟨S200000x64, .f32⟩ : BufTy).Contents (Elt Ideal)) (x2 : (⟨S2x64x128, .f32⟩ : BufTy).Contents (Elt Ideal)) (x3 : (⟨S2x64, .f32⟩ : BufTy).Contents (Elt Ideal)) (x4 x5 : (⟨S3200000, .i32⟩ : BufTy).Contents (Elt Ideal)) (x6 : (⟨S3200000, .f32⟩ : BufTy).Contents (Elt Ideal)) :
    val_main_v36 (F := Ideal) x0 x2 x3 x4 x5 x6
      = Cert.KernelIdeal.HostGlue.userSparse x4 x5 x6 (val_main_v23 (F := Ideal) x0 x2 x3 x4 x5 x6) := rfl

theorem sparse2 (x1 : (⟨S100000x64, .f32⟩ : BufTy).Contents (Elt Ideal)) (x7 x8 : (⟨S3200000, .i32⟩ : BufTy).Contents (Elt Ideal))
    (x9 : (⟨S3200000, .f32⟩ : BufTy).Contents (Elt Ideal)) :
    val_main_v60 (F := Ideal) x1 x7 x8 x9 = Cert.KernelIdeal.HostGlue.itemSparse x7 x8 x9 x1 := rfl

/-! ## The dense stages are the encoder's layers -/

/-- Stage val_main_v23 of the reference, rectify (concat (agg, U) . W[0]ᵀ + b[0]), is layer 0 of the encoder on the same two
    tables: the 128-term contraction splits at 64 into the aggregate's columns against the left half of the weight
    matrix and the table's columns against the right half. -/
theorem layer0_stage (x0 : (⟨S200000x64, .f32⟩ : BufTy).Contents (Elt Ideal)) (x2 : (⟨S2x64x128, .f32⟩ : BufTy).Contents (Elt Ideal)) (x3 : (⟨S2x64, .f32⟩ : BufTy).Contents (Elt Ideal)) (x4 x5 : (⟨S3200000, .i32⟩ : BufTy).Contents (Elt Ideal)) (x6 : (⟨S3200000, .f32⟩ : BufTy).Contents (Elt Ideal)) :
    val_main_v23 (F := Ideal) x0 x2 x3 x4 x5 x6 = layer 0 (val_main_v12 (F := Ideal) x0 x4 x5 x6) (x0) x2 x3 := by
  funext i
  obtain ⟨p, q, rfl⟩ : ∃ (p : Fin 200000) (q : Fin 64), i = ix2 p q := ⟨i 0, i 1, eq_ix2 i⟩
  rw [val_main_v23_apply, val_main_v22_apply, val_main_v17_apply]
  unfold layer
  rw [dense_ix2]
  unfold denseAt
  show max ((∑ k : Fin 128, _) + _) _ = _
  refine congrArg₂ max (congrArg₂ (· + ·) ?_ ?_) ?_
  · rw [sum_halves]
    refine congrArg₂ (· + ·) (Finset.sum_congr rfl fun cc _ => ?_) (Finset.sum_congr rfl fun cc _ => ?_)
    · refine congrArg₂ (· * ·) ?_ ?_
      · have e : lidx_main_v17 (ix2 p q) ⟨cc.val, by omega⟩ = ix2 p (⟨cc.val, by omega⟩ : Fin 128) :=
          funext fun a => Fin.ext (by match a with | ⟨0, _⟩ => rfl | ⟨1, _⟩ => rfl)
        rw [e]
        unfold val_main_v13
        exact Cert.Lib.concat_cols_left _ _ concatenates_S200000x64_S200000x64_S200000x128_d1 p cc ⟨cc.val, by omega⟩ rfl
      · rw [val_main_v16_apply, val_main_v15_apply, val_main_v14_apply]
        unfold waOf
        have hq : q.val < 64 := q.isLt
        have hc : cc.val < 64 := cc.isLt
        refine congrArg x2 (funext fun a => Fin.ext ?_)
        match a with
        | ⟨0, _⟩ => rfl
        | ⟨1, _⟩ => show (q.val * 128 + cc.val) / 128 % 64 = q.val; omega
        | ⟨2, _⟩ => show (q.val * 128 + cc.val) % 128 = cc.val; omega
    · refine congrArg₂ (· * ·) ?_ ?_
      · have e : lidx_main_v17 (ix2 p q) ⟨64 + cc.val, by omega⟩ = ix2 p (⟨64 + cc.val, by omega⟩ : Fin 128) :=
          funext fun a => Fin.ext (by match a with | ⟨0, _⟩ => rfl | ⟨1, _⟩ => rfl)
        rw [e]
        unfold val_main_v13
        exact Cert.Lib.concat_cols_right _ _ concatenates_S200000x64_S200000x64_S200000x128_d1 p cc ⟨64 + cc.val, by omega⟩ rfl
      · rw [val_main_v16_apply, val_main_v15_apply, val_main_v14_apply]
        unfold wbOf
        have hq : q.val < 64 := q.isLt
        have hc : cc.val < 64 := cc.isLt
        refine congrArg x2 (funext fun a => Fin.ext ?_)
        match a with
        | ⟨0, _⟩ => rfl
        | ⟨1, _⟩ => show (q.val * 128 + (64 + cc.val)) / 128 % 64 = q.val; omega
        | ⟨2, _⟩ => show (q.val * 128 + (64 + cc.val)) % 128 = 64 + cc.val; omega
  · rw [val_main_v21_apply, val_main_v20_apply, val_main_v19_apply, val_main_v18_apply]
    unfold biasOf
    have hq : q.val < 64 := q.isLt
    refine congrArg x3 (funext fun a => Fin.ext ?_)
    match a with
    | ⟨0, _⟩ => rfl
    | ⟨1, _⟩ => show q.val % 64 = q.val; omega
  · rw [val_main_call0_v0_apply, val_main_call0_cst_apply]
    rfl

/-- Stage val_main_v47 of the reference, rectify (concat (agg, U) . W[1]ᵀ + b[1]), is layer 1 of the encoder on the same two
    tables: the 128-term contraction splits at 64 into the aggregate's columns against the left half of the weight
    matrix and the table's columns against the right half. -/
theorem layer1_stage (x0 : (⟨S200000x64, .f32⟩ : BufTy).Contents (Elt Ideal)) (x2 : (⟨S2x64x128, .f32⟩ : BufTy).Contents (Elt Ideal)) (x3 : (⟨S2x64, .f32⟩ : BufTy).Contents (Elt Ideal)) (x4 x5 : (⟨S3200000, .i32⟩ : BufTy).Contents (Elt Ideal)) (x6 : (⟨S3200000, .f32⟩ : BufTy).Contents (Elt Ideal)) :
    val_main_v47 (F := Ideal) x0 x2 x3 x4 x5 x6 = layer 1 (val_main_v36 (F := Ideal) x0 x2 x3 x4 x5 x6) (val_main_v23 (F := Ideal) x0 x2 x3 x4 x5 x6) x2 x3 := by
  funext i
  obtain ⟨p, q, rfl⟩ : ∃ (p : Fin 200000) (q : Fin 64), i = ix2 p q := ⟨i 0, i 1, eq_ix2 i⟩
  rw [val_main_v47_apply, val_main_v46_apply, val_main_v41_apply]
  unfold layer
  rw [dense_ix2]
  unfold denseAt
  show max ((∑ k : Fin 128, _) + _) _ = _
  refine congrArg₂ max (congrArg₂ (· + ·) ?_ ?_) ?_
  · rw [sum_halves]
    refine congrArg₂ (· + ·) (Finset.sum_congr rfl fun cc _ => ?_) (Finset.sum_congr rfl fun cc _ => ?_)
    · refine congrArg₂ (· * ·) ?_ ?_
      · have e : lidx_main_v41 (ix2 p q) ⟨cc.val, by omega⟩ = ix2 p (⟨cc.val, by omega⟩ : Fin 128) :=
          funext fun a => Fin.ext (by match a with | ⟨0, _⟩ => rfl | ⟨1, _⟩ => rfl)
        rw [e]
        unfold val_main_v37
        exact Cert.Lib.concat_cols_left _ _ concatenates_S200000x64_S200000x64_S200000x128_d1 p cc ⟨cc.val, by omega⟩ rfl
      · rw [val_main_v40_apply, val_main_v39_apply, val_main_v38_apply]
        unfold waOf
        have hq : q.val < 64 := q.isLt
        have hc : cc.val < 64 := cc.isLt
        refine congrArg x2 (funext fun a => Fin.ext ?_)
        match a with
        | ⟨0, _⟩ => rfl
        | ⟨1, _⟩ => show (q.val * 128 + cc.val) / 128 % 64 = q.val; omega
        | ⟨2, _⟩ => show (q.val * 128 + cc.val) % 128 = cc.val; omega
    · refine congrArg₂ (· * ·) ?_ ?_
      · have e : lidx_main_v41 (ix2 p q) ⟨64 + cc.val, by omega⟩ = ix2 p (⟨64 + cc.val, by omega⟩ : Fin 128) :=
          funext fun a => Fin.ext (by match a with | ⟨0, _⟩ => rfl | ⟨1, _⟩ => rfl)
        rw [e]
        unfold val_main_v37
        exact Cert.Lib.concat_cols_right _ _ concatenates_S200000x64_S200000x64_S200000x128_d1 p cc ⟨64 + cc.val, by omega⟩ rfl
      · rw [val_main_v40_apply, val_main_v39_apply, val_main_v38_apply]
        unfold wbOf
        have hq : q.val < 64 := q.isLt
        have hc : cc.val < 64 := cc.isLt
        refine congrArg x2 (funext fun a => Fin.ext ?_)
        match a with
        | ⟨0, _⟩ => rfl
        | ⟨1, _⟩ => show (q.val * 128 + (64 + cc.val)) / 128 % 64 = q.val; omega
        | ⟨2, _⟩ => show (q.val * 128 + (64 + cc.val)) % 128 = 64 + cc.val; omega
  · rw [val_main_v45_apply, val_main_v44_apply, val_main_v43_apply, val_main_v42_apply]
    unfold biasOf
    have hq : q.val < 64 := q.isLt
    refine congrArg x3 (funext fun a => Fin.ext ?_)
    match a with
    | ⟨0, _⟩ => rfl
    | ⟨1, _⟩ => show q.val % 64 = q.val; omega
  · rw [val_main_call1_v0_apply, val_main_call1_cst_apply]
    rfl

/-! ## The result -/

/-- The reference's result stage is the encoder's user table of its arguments. -/
theorem result (x0 : (⟨S200000x64, .f32⟩ : BufTy).Contents (Elt Ideal)) (x2 : (⟨S2x64x128, .f32⟩ : BufTy).Contents (Elt Ideal)) (x3 : (⟨S2x64, .f32⟩ : BufTy).Contents (Elt Ideal)) (x4 x5 : (⟨S3200000, .i32⟩ : BufTy).Contents (Elt Ideal)) (x6 : (⟨S3200000, .f32⟩ : BufTy).Contents (Elt Ideal))
    (x1 : (⟨S100000x64, .f32⟩ : BufTy).Contents (Elt Ideal)) (x7 x8 : (⟨S3200000, .i32⟩ : BufTy).Contents (Elt Ideal))
    (x9 : (⟨S3200000, .f32⟩ : BufTy).Contents (Elt Ideal)) :
    val_main_v61 (F := Ideal) x0 x1 x2 x3 x4 x5 x6 x7 x8 x9
      = users (Cert.KernelIdeal.HostGlue.userSparse x4 x5 x6) (Cert.KernelIdeal.HostGlue.itemSparse x7 x8 x9 x1) x0 x2 x3 := by
  show entrySum (val_main_v47 (F := Ideal) x0 x2 x3 x4 x5 x6) (val_main_v60 (F := Ideal) x1 x7 x8 x9) = _
  unfold users
  refine entrySum_congr ?_ (sparse2 x1 x7 x8 x9)
  rw [layer1_stage, sparse1, layer0_stage, sparse0]

end Cert.ReferenceIdeal.UserValue

end
-- ==== Proof.lean ====
/-
  A two-layer diffusion encoder over a user graph, against its reference: equal as extended reals.

  Both programs compute, from a user table U₀ (200000 x 64), an item table, two 64 x 128 weight matrices W[0], W[1], two
  bias rows and two sparse graphs given as (row, column, value) edge lists,

      U₁ = rectify (S U₀ . A₀ + U₀ . B₀ + b[0]),   U₂ = rectify (S U₁ . A₁ + U₁ . B₁ + b[1]),   result = U₂ + R,

  where S X is the user graph's sparse product with a table X, R the user-item graph's sparse product with the item
  table, and A_l, B_l are the left and right 64-column halves of W[l], transposed. The kernel program forms S X and R with
  host operations and runs three pallas_calls over 40 row blocks of 5000 rows: two dense updates, each the sum of two
  64-term block products plus the bias row, rectified, and one entrywise sum. The reference forms the same sparse products
  with the same host operations and computes each dense stage as one 128-term contraction of the concatenation
  [S U | U] with W[l]ᵀ.

  On the extended reals a change of float format is the identity and a product accumulated into the zero block is the
  exact contraction, so the two programs differ only in how the 128-term sum is grouped: the sum of the first 64 terms
  plus the sum of the last 64. That holds in any commutative additive monoid, so the precondition (finite inputs) is
  never opened. The idealization rewrote no operation, so the preservation claim is `True`; the three frame claims are
  the generated frames, the reference's being its generated run with the result forgotten.
-/
import proofs.«154851_j78683800863294_1_alg».proof.Defs
import proofs.«154851_j78683800863294_1_alg».proof.Proof.Gen.Kernel
import proofs.«154851_j78683800863294_1_alg».proof.Proof.Gen.Kernel.Skeleton
import proofs.«154851_j78683800863294_1_alg».proof.Proof.Gen.Kernel.Launch
import proofs.«154851_j78683800863294_1_alg».proof.Proof.Gen.Kernel.Points
import proofs.«154851_j78683800863294_1_alg».proof.Proof.Gen.Kernel.Frame
import proofs.«154851_j78683800863294_1_alg».proof.Proof.Gen.KernelIdeal
import proofs.«154851_j78683800863294_1_alg».proof.Proof.Gen.KernelIdeal.Skeleton
import proofs.«154851_j78683800863294_1_alg».proof.Proof.Gen.KernelIdeal.Launch
import proofs.«154851_j78683800863294_1_alg».proof.Proof.Gen.KernelIdeal.Points
import proofs.«154851_j78683800863294_1_alg».proof.Proof.Gen.KernelIdeal.Frame
import proofs.«154851_j78683800863294_1_alg».proof.Proof.Gen.ReferenceIdeal
import proofs.«154851_j78683800863294_1_alg».proof.Proof.Gen.Pre_finite_inputs
import proofs.«154851_j78683800863294_1_alg».proof.Proof.Gen.ReferenceIdeal.Run
import proofs.«154851_j78683800863294_1_alg».proof.Proof.Gen.ReferenceIdeal.Read
import proofs.«154851_j78683800863294_1_alg».proof.Proof.KernelValue
import proofs.«154851_j78683800863294_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the ten arguments both programs end with the encoder's user table of those arguments
    as first result and the item table, unchanged, as second. -/
theorem algebraic : Cert.algebraic_KernelIdeal_ReferenceIdeal := by
  intro m ρ m' ρ' _ hagree
  refine ⟨_, fun c => m ((c.tc : Thread Cert.KernelIdeal.nD Cert.KernelIdeal.τ).loc Cert.KernelIdeal.main_arg1),
    (θ_run Cert.KernelIdeal.defs _ _).mono (fun r h c => ⟨(h c).1, (h c).2.2.1, (h c).2⟩)
      (Cert.KernelIdeal.UserValue.run m ρ), ?_⟩
  refine (θ_run Cert.ReferenceIdeal.defs _ _).mono
    (fun r h c => ⟨(h c).1.trans ?_, (h c).2.1.trans (hagree c).2.1, (h c).2.2⟩)
    (Cert.ReferenceIdeal.Value.run (F := Ideal) m' ρ')
  obtain ⟨h0, h1, h2, h3, h4, h5, h6, h7, h8, h9⟩ := hagree c
  rw [Cert.ReferenceIdeal.Read.val_main_v61_eq, Cert.ReferenceIdeal.UserValue.result, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
